-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S8192x2 : Shape := ⟨2, ![8192, 2]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_

variable [Facts]

def fn {F : FTy → Type} [FloatOps F] (main_arg0 : FVec F S16384x2 .f32) (main_arg1 : FVec F S8192x2 .f32) : IVec S_ 1 :=
  let main_v0 : FVec F S16384x2 .f32 := Host.absf main_arg0
  let main_cst : FVec F S_ .f32 := constant S_ .f32 0x7F800000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  main_v8
-- ==== Kernel.lean ====
abbrev S16384x2 : Shape := ⟨2, ![16384, 2]⟩
abbrev S8192x2 : Shape := ⟨2, ![8192, 2]⟩
abbrev S_ : Shape := ⟨0, ![]⟩
abbrev S2 : Shape := ⟨1, ![2]⟩
abbrev S1x2 : Shape := ⟨2, ![1, 2]⟩
abbrev S16384 : Shape := ⟨1, ![16384]⟩
abbrev S16384x1 : Shape := ⟨2, ![16384, 1]⟩
abbrev S8192x1 : Shape := ⟨2, ![8192, 1]⟩
abbrev S1x8192 : Shape := ⟨2, ![1, 8192]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S8192 : Shape := ⟨1, ![8192]⟩

abbrev nBuf : Space → Nat
  | .hbm => 25
  | .vmem => 13
  | .smem => 0
  | _ => 0

abbrev bufTy : (tb : Table) → Fin (tcTables nBuf tb) → BufTy
  | .hbm, ⟨0, _⟩ => ⟨S16384x2, .f32⟩
  | .hbm, ⟨1, _⟩ => ⟨S8192x2, .f32⟩
  | .hbm, ⟨2, _⟩ => ⟨S8192x2, .f32⟩
  | .hbm, ⟨3, _⟩ => ⟨S_, .f32⟩
  | .hbm, ⟨4, _⟩ => ⟨S2, .f32⟩
  | .hbm, ⟨5, _⟩ => ⟨S16384x2, .f32⟩
  | .hbm, ⟨6, _⟩ => ⟨S1x2, .f32⟩
  | .hbm, ⟨7, _⟩ => ⟨S16384x2, .f32⟩
  | .hbm, ⟨8, _⟩ => ⟨S16384x2, .i1⟩
  | .hbm, ⟨9, _⟩ => ⟨S_, .i1⟩
  | .hbm, ⟨10, _⟩ => ⟨S16384, .i1⟩
  | .hbm, ⟨11, _⟩ => ⟨S16384, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S8192x1, .f32⟩
  | .hbm, ⟨16, _⟩ => ⟨S1x8192, .f32⟩
  | .hbm, ⟨17, _⟩ => ⟨S8192x1, .f32⟩
  | .hbm, ⟨18, _⟩ => ⟨S1x8192, .f32⟩
  | .hbm, ⟨19, _⟩ => ⟨S1x8192, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192, .f32⟩
  | .local _ .vmem, ⟨0, _⟩ => ⟨S1024x1, .f32⟩
  | .local _ .vmem, ⟨1, _⟩ => ⟨S1024x1, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v36 : BitVec 1 := Scalar.cmpi .eq arg1 c15_i32
  let v37 : BitVec 32 := Scalar.extui v36
  let c0_i32_16 : BitVec 32 := 0#32
  let v38 : BitVec 1 := Scalar.cmpi .ne v37 c0_i32_16
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x2_S2_d0 : S8192x2.ReducesTo [0] S2
  h_S_ : 0 < S_.numel
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  reducesTo_S16384x2_S16384_d1 : S16384x2.ReducesTo [1] S16384
  shapeCasts_S16384_S16384x1 : S16384.ShapeCasts S16384x1
  slices_S16384x2_S16384x1_0_0 : S16384x2.Slices ![0, 0] S16384x1
  slices_S16384x2_S16384x1_0_1 : S16384x2.Slices ![0, 1] S16384x1
  slices_S8192x2_S8192x1_0_0 : S8192x2.Slices ![0, 0] S8192x1
  shapeCasts_S8192x1_S1x8192 : S8192x1.ShapeCasts S1x8192
  slices_S8192x2_S8192x1_0_1 : S8192x2.Slices ![0, 1] S8192x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  broadcasts_S1x1024_S1024x1024 : S1x1024.Broadcasts S1024x1024
  reduces_S1024x1024_S1024 : S1024x1024.Reduces [0] S1024
  shapeCasts_S1024_S1x1024 : S1024.ShapeCasts S1x1024
  shapeCasts_S1x8192_S8192 : S1x8192.ShapeCasts S8192
  reducesTo_S8192_S_d0 : S8192.ReducesTo [0] S_
  bcast_S_S8192 : S_.BroadcastsInDim S8192 (![] : Fin 0 → Fin S8192.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .f32 = 32 ∨ (Rect.block (s := S16384x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .f32 = 32 ∨ (Rect.block (s := S16384x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)

variable [Facts₀]

abbrev win0_0 : Pipeline.Window sig grid0 :=
  Pipeline.Window.ofSpec (Memref.whole main_v9) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x2 : Shape := ⟨2, ![16384, 2]⟩
abbrev S8192x2 : Shape := ⟨2, ![8192, 2]⟩
abbrev S_ : Shape := ⟨0, ![]⟩
abbrev S2 : Shape := ⟨1, ![2]⟩
abbrev S1x2 : Shape := ⟨2, ![1, 2]⟩
abbrev S16384 : Shape := ⟨1, ![16384]⟩
abbrev S16384x1x2 : Shape := ⟨3, ![16384, 1, 2]⟩
abbrev S1x8192x2 : Shape := ⟨3, ![1, 8192, 2]⟩
abbrev S16384x8192x2 : Shape := ⟨3, ![16384, 8192, 2]⟩
abbrev S16384x8192 : Shape := ⟨2, ![16384, 8192]⟩
abbrev S16384x1 : Shape := ⟨2, ![16384, 1]⟩
abbrev S8192 : Shape := ⟨1, ![8192]⟩

abbrev nBuf : Space → Nat
  | .hbm => 34
  | .vmem => 0
  | .smem => 0
  | _ => 0

abbrev bufTy : (tb : Table) → Fin (tcTables nBuf tb) → BufTy
  | .hbm, ⟨0, _⟩ => ⟨S16384x2, .f32⟩
  | .hbm, ⟨1, _⟩ => ⟨S8192x2, .f32⟩
  | .hbm, ⟨2, _⟩ => ⟨S8192x2, .f32⟩
  | .hbm, ⟨3, _⟩ => ⟨S_, .f32⟩
  | .hbm, ⟨4, _⟩ => ⟨S2, .f32⟩
  | .hbm, ⟨5, _⟩ => ⟨S16384x2, .f32⟩
  | .hbm, ⟨6, _⟩ => ⟨S1x2, .f32⟩
  | .hbm, ⟨7, _⟩ => ⟨S16384x2, .f32⟩
  | .hbm, ⟨8, _⟩ => ⟨S16384x2, .i1⟩
  | .hbm, ⟨9, _⟩ => ⟨S_, .i1⟩
  | .hbm, ⟨10, _⟩ => ⟨S16384, .i1⟩
  | .hbm, ⟨11, _⟩ => ⟨S16384x1x2, .f32⟩
  | .hbm, ⟨12, _⟩ => ⟨S1x8192x2, .f32⟩
  | .hbm, ⟨13, _⟩ => ⟨S16384x8192x2, .f32⟩
  | .hbm, ⟨14, _⟩ => ⟨S16384x8192x2, .f32⟩
  | .hbm, ⟨15, _⟩ => ⟨S16384x8192x2, .f32⟩
  | .hbm, ⟨16, _⟩ => ⟨S16384x8192x2, .f32⟩
  | .hbm, ⟨17, _⟩ => ⟨S_, .f32⟩
  | .hbm, ⟨18, _⟩ => ⟨S16384x8192, .f32⟩
  | .hbm, ⟨19, _⟩ => ⟨S16384x8192, .f32⟩
  | .hbm, ⟨20, _⟩ => ⟨S_, .f32⟩
  | .hbm, ⟨21, _⟩ => ⟨S16384x8192, .f32⟩
  | .hbm, ⟨22, _⟩ => ⟨S16384x8192, .f32⟩
  | .hbm, ⟨23, _⟩ => ⟨S16384x8192, .f32⟩
  | .hbm, ⟨24, _⟩ => ⟨S16384x1, .i1⟩
  | .hbm, ⟨25, _⟩ => ⟨S16384x1, .f32⟩
  | .hbm, ⟨26, _⟩ => ⟨S16384x8192, .f32⟩
  | .hbm, ⟨27, _⟩ => ⟨S16384x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S8192, .f32⟩
  | .hbm, ⟨33, _⟩ => ⟨S8192, .f32⟩
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  reducesTo_S8192x2_S2_d0 : S8192x2.ReducesTo [0] S2
  h_S_ : 0 < S_.numel
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  reducesTo_S16384x2_S16384_d1 : S16384x2.ReducesTo [1] S16384
  bcast_S16384x2_S16384x1x2_0_2 : S16384x2.BroadcastsInDim S16384x1x2 (![0, 2] : Fin 2 → Fin S16384x1x2.rank)
  bcast_S8192x2_S1x8192x2_1_2 : S8192x2.BroadcastsInDim S1x8192x2 (![1, 2] : Fin 2 → Fin S1x8192x2.rank)
  bcast_S16384x1x2_S16384x8192x2_0_1_2 : S16384x1x2.BroadcastsInDim S16384x8192x2 (![0, 1, 2] : Fin 3 → Fin S16384x8192x2.rank)
  bcast_S1x8192x2_S16384x8192x2_0_1_2 : S1x8192x2.BroadcastsInDim S16384x8192x2 (![0, 1, 2] : Fin 3 → Fin S16384x8192x2.rank)
  reducesTo_S16384x8192x2_S16384x8192_d2 : S16384x8192x2.ReducesTo [2] S16384x8192
  bcast_S_S16384x8192 : S_.BroadcastsInDim S16384x8192 (![] : Fin 0 → Fin S16384x8192.rank)
  bcast_S16384_S16384x1_0 : S16384.BroadcastsInDim S16384x1 (![0] : Fin 1 → Fin S16384x1.rank)
  bcast_S16384x1_S16384x8192_0_1 : S16384x1.BroadcastsInDim S16384x8192 (![0, 1] : Fin 2 → Fin S16384x8192.rank)
  reducesTo_S16384x8192_S8192_d0 : S16384x8192.ReducesTo [0] S8192
  reducesTo_S8192_S_d0 : S8192.ReducesTo [0] S_
  bcast_S_S8192 : S_.BroadcastsInDim S8192 (![] : Fin 0 → Fin S8192.rank)

variable [Facts₀]

class Facts : Prop extends Facts₀ where

variable [Facts]
-- ==== Proof.LibColumn.lean ====
/-
  Column vectors read at an index given by coordinates.

  A column is a matrix with ONE column, shape `[a, 1]`. Three layout operations on columns, each read at an index
  written `ix2 …`: a vector `[a]` cast to a column reads, at `(i, u)`, the vector at `i`; a column cast to a row `[1, a]`
  reads, at `(u, i)`, the column at `(i, 0)` (the same row-major position); a column broadcast to a matrix `[a, b]` reads,
  at `(p, c)`, the column at `(p, 0)`, whatever `c`. They are the column counterparts of the row forms (a vector cast to a
  row, a row broadcast over many rows).
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[1, a]` reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KdeBlocks.lean ====
/-
  What the kernel's five input blocks hold at a grid point, in terms of the two argument arrays.

  Before the region the host cuts the samples `x` (16384 × 2) into its two coordinate columns, turns the indicator of
  the locations' bounding box into a float column, and cuts the locations `y` (8192 × 2) into its two coordinate columns
  laid out as rows. The grid has 8 × 16 points; point `t` works on location tile `t / 16` and sample tile `t % 16`. At
  that point the three sample blocks hold rows `1024 (t % 16) + r` of the sample columns and the two location blocks hold
  lanes `1024 (t / 16) + q` of the location rows.
-/
import proofs.«134731_j37915971289662_2_alg».proof.Proof.Gen.KernelIdeal.Frame
import proofs.«134731_j37915971289662_2_alg».proof.Proof.LibColumn
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Blocks
open Cert.KernelIdeal Cert.KernelIdeal.Gen Cert.LibColumn

variable (m : (ℓ : Loc nD τ sig) → Buf (Elt Ideal) ℓ)

/-- The two argument arrays on core `c`. -/
abbrev X0 (c : Dev nD) : FVec Ideal S16384x2 .f32 := m ((c : Thread nD τ).loc main_arg0)
abbrev X1 (c : Dev nD) : FVec Ideal S8192x2 .f32 := m ((c : Thread nD τ).loc main_arg1)

/-- The indicator that a sample lies strictly inside the locations' bounding box: both of its absolute coordinates below
    the largest absolute coordinate of the locations on that axis. -/
def inBox (x0 : FVec Ideal S16384x2 .f32) (x1 : FVec Ideal S8192x2 .f32) : S16384.Idx → BitVec 1 :=
  Host.reduce IntOp.andi
    (cmpf .olt (Host.absf x0)
      (broadcastInDim S16384x2 ![0, 1] bcast_S1x2_S16384x2_0_1
        (broadcastInDim S1x2 ![1] bcast_S2_S1x2_1
          (Host.reduce FloatOps.maximumf (Host.absf x1) (constant (F := Ideal) S_ .f32 0xFF800000#32) reducesTo_S8192x2_S2_d0 h_S_))))
    (constantI S_ 1 1#1) reducesTo_S16384x2_S16384_d1 h_S_

/-- A sample's weight: the indicator as a float. -/
def weight (x0 : FVec Ideal S16384x2 .f32) (x1 : FVec Ideal S8192x2 .f32) (s : Fin 16384) : EReal :=
  FloatOps.uitofp (F := Ideal) .f32 (inBox x0 x1 (ix1 s))

/-! ## The arrays the region finds -/

theorem V_v9 (c : Dev nD) : (V m c main_v9 : S16384x1.Idx → EReal)
    = extractStridedSlice S16384x1 ![0, 0] (X0 m c) slices_S16384x2_S16384x1_0_0 := by
  show StableHlo.after hostOps0 (fun b => m (c, b)) (Proc.devRef .tc main_v9) = _
  after_results

theorem V_v10 (c : Dev nD) : (V m c main_v10 : S16384x1.Idx → EReal)
    = extractStridedSlice S16384x1 ![0, 1] (X0 m c) slices_S16384x2_S16384x1_0_1 := by
  show StableHlo.after hostOps0 (fun b => m (c, b)) (Proc.devRef .tc main_v10) = _
  after_results

theorem V_v8 (c : Dev nD) : (V m c main_v8 : S16384x1.Idx → EReal)
    = shapeCast S16384x1 (uitofp (F := Ideal) .f32 (inBox (X0 m c) (X1 m c))) shapeCasts_S16384_S16384x1 := by
  show StableHlo.after hostOps0 (fun b => m (c, b)) (Proc.devRef .tc main_v8) = _
  after_results
  rfl

theorem V_v12 (c : Dev nD) : (V m c main_v12 : S1x8192.Idx → EReal)
    = shapeCast S1x8192 (extractStridedSlice S8192x1 ![0, 0] (X1 m c) slices_S8192x2_S8192x1_0_0) shapeCasts_S8192x1_S1x8192 := by
  show StableHlo.after hostOps0 (fun b => m (c, b)) (Proc.devRef .tc main_v12) = _
  after_results
  rfl

theorem V_v14 (c : Dev nD) : (V m c main_v14 : S1x8192.Idx → EReal)
    = shapeCast S1x8192 (extractStridedSlice S8192x1 ![0, 1] (X1 m c) slices_S8192x2_S8192x1_0_1) shapeCasts_S8192x1_S1x8192 := by
  show StableHlo.after hostOps0 (fun b => m (c, b)) (Proc.devRef .tc main_v14) = _
  after_results
  rfl

/-! ## The same arrays at an index -/

theorem V_v9_apply (c : Dev nD) (s : Fin 16384) :
    (V m c main_v9 : S16384x1.Idx → EReal) (ix2 s (0 : Fin 1)) = X0 m c (ix2 s (0 : Fin 2)) := by
  rw [V_v9]; exact slice2_axis1_apply 0 _ _ s (0 : Fin 1) (0 : Fin 2) rfl

theorem V_v10_apply (c : Dev nD) (s : Fin 16384) :
    (V m c main_v10 : S16384x1.Idx → EReal) (ix2 s (0 : Fin 1)) = X0 m c (ix2 s (1 : Fin 2)) := by
  rw [V_v10]; exact slice2_axis1_apply 1 _ _ s (0 : Fin 1) (1 : Fin 2) rfl

theorem V_v8_apply (c : Dev nD) (s : Fin 16384) :
    (V m c main_v8 : S16384x1.Idx → EReal) (ix2 s (0 : Fin 1)) = weight (X0 m c) (X1 m c) s := by
  rw [V_v8]; exact (shapeCast_a_a1_apply _ _ s (0 : Fin 1)).trans rfl

theorem V_v12_apply (c : Dev nD) (l : Fin 8192) :
    (V m c main_v12 : S1x8192.Idx → EReal) (ix2 (0 : Fin 1) l) = X1 m c (ix2 l (0 : Fin 2)) := by
  rw [V_v12]
  exact (shapeCast_a1_1a_apply _ _ (0 : Fin 1) l).trans (slice2_axis1_apply 0 _ _ l (0 : Fin 1) (0 : Fin 2) rfl)

theorem V_v14_apply (c : Dev nD) (l : Fin 8192) :
    (V m c main_v14 : S1x8192.Idx → EReal) (ix2 (0 : Fin 1) l) = X1 m c (ix2 l (1 : Fin 2)) := by
  rw [V_v14]
  exact (shapeCast_a1_1a_apply _ _ (0 : Fin 1) l).trans (slice2_axis1_apply 1 _ _ l (0 : Fin 1) (1 : Fin 2) rfl)

/-! ## The blocks at a point -/

/-- Where each window's block sits at point `t`: the sample windows at row block `t % 16`, the location windows and the
    output at lane block `t / 16` — decided over the grid's 128 points. -/
theorem block_index : ∀ t : Fin cfg0.N,
    (win0_0.index t 0 = t.val % 16 ∧ win0_0.index t 1 = 0) ∧ (win0_1.index t 0 = t.val % 16 ∧ win0_1.index t 1 = 0)
    ∧ (win0_2.index t 0 = t.val % 16 ∧ win0_2.index t 1 = 0) ∧ (win0_3.index t 0 = 0 ∧ win0_3.index t 1 = t.val / 16)
    ∧ (win0_4.index t 0 = 0 ∧ win0_4.index t 1 = t.val / 16) ∧ (win0_5.index t 0 = 0 ∧ win0_5.index t 1 = t.val / 16) :=
  (by decide +kernel : ∀ t : Fin grid0.N,
    (win0_0.index t 0 = t.val % 16 ∧ win0_0.index t 1 = 0) ∧ (win0_1.index t 0 = t.val % 16 ∧ win0_1.index t 1 = 0)
    ∧ (win0_2.index t 0 = t.val % 16 ∧ win0_2.index t 1 = 0) ∧ (win0_3.index t 0 = 0 ∧ win0_3.index t 1 = t.val / 16)
    ∧ (win0_4.index t 0 = 0 ∧ win0_4.index t 1 = t.val / 16) ∧ (win0_5.index t 0 = 0 ∧ win0_5.index t 1 = t.val / 16))

/-- The sample row a point's tile row `r` is. -/
abbrev srow (t : Fin cfg0.N) (r : Fin 1024) : Fin 16384 :=
  ⟨t.val % 16 * 1024 + r.val, by have := Nat.mod_lt t.val (by norm_num : 16 > 0); have := r.isLt; omega⟩

/-- The location a point's tile lane `q` is. -/
abbrev lloc (t : Fin cfg0.N) (q : Fin 1024) : Fin 8192 :=
  ⟨t.val / 16 * 1024 + q.val, by
    have hN : t.val < 128 := lt_of_lt_of_eq t.isLt (show cfg0.N = 128 from N_0)
    have := q.isLt; omega⟩

theorem iblk0_apply (c : Dev nD) (t : Fin cfg0.N) (r : Fin 1024) :
    (iblk m c 0 t : Vec Ideal S1024x1 .f32) (ix2 r (0 : Fin 1)) = X0 m c (ix2 (srow t r) (0 : Fin 2)) := by
  refine Eq.trans ?_ (V_v9_apply m c (srow t r))
  unfold iblk
  rw [View.read_apply]
  show V m c main_v9 _ = V m c main_v9 _
  refine congrArg (V m c main_v9) (funext fun a => Fin.ext ?_)
  match a with
  | ⟨0, _⟩ => show win0_0.index t 0 * 1024 + 1 * r.val = t.val % 16 * 1024 + r.val; rw [(block_index t).1.1]; omega
  | ⟨1, _⟩ => show win0_0.index t 1 * 1 + 1 * 0 = 0; rw [(block_index t).1.2]

theorem iblk1_apply (c : Dev nD) (t : Fin cfg0.N) (r : Fin 1024) :
    (iblk m c 1 t : Vec Ideal S1024x1 .f32) (ix2 r (0 : Fin 1)) = X0 m c (ix2 (srow t r) (1 : Fin 2)) := by
  refine Eq.trans ?_ (V_v10_apply m c (srow t r))
  unfold iblk
  rw [View.read_apply]
  show V m c main_v10 _ = V m c main_v10 _
  refine congrArg (V m c main_v10) (funext fun a => Fin.ext ?_)
  match a with
  | ⟨0, _⟩ => show win0_1.index t 0 * 1024 + 1 * r.val = t.val % 16 * 1024 + r.val; rw [(block_index t).2.1.1]; omega
  | ⟨1, _⟩ => show win0_1.index t 1 * 1 + 1 * 0 = 0; rw [(block_index t).2.1.2]

theorem iblk2_apply (c : Dev nD) (t : Fin cfg0.N) (r : Fin 1024) :
    (iblk m c 2 t : Vec Ideal S1024x1 .f32) (ix2 r (0 : Fin 1)) = weight (X0 m c) (X1 m c) (srow t r) := by
  refine Eq.trans ?_ (V_v8_apply m c (srow t r))
  unfold iblk
  rw [View.read_apply]
  show V m c main_v8 _ = V m c main_v8 _
  refine congrArg (V m c main_v8) (funext fun a => Fin.ext ?_)
  match a with
  | ⟨0, _⟩ => show win0_2.index t 0 * 1024 + 1 * r.val = t.val % 16 * 1024 + r.val; rw [(block_index t).2.2.1.1]; omega
  | ⟨1, _⟩ => show win0_2.index t 1 * 1 + 1 * 0 = 0; rw [(block_index t).2.2.1.2]

theorem iblk3_apply (c : Dev nD) (t : Fin cfg0.N) (q : Fin 1024) :
    (iblk m c 3 t : Vec Ideal S1x1024 .f32) (ix2 (0 : Fin 1) q) = X1 m c (ix2 (lloc t q) (0 : Fin 2)) := by
  refine Eq.trans ?_ (V_v12_apply m c (lloc t q))
  unfold iblk
  rw [View.read_apply]
  show V m c main_v12 _ = V m c main_v12 _
  refine congrArg (V m c main_v12) (funext fun a => Fin.ext ?_)
  match a with
  | ⟨0, _⟩ => show win0_3.index t 0 * 1 + 1 * 0 = 0; rw [(block_index t).2.2.2.1.1]
  | ⟨1, _⟩ => show win0_3.index t 1 * 1024 + 1 * q.val = t.val / 16 * 1024 + q.val; rw [(block_index t).2.2.2.1.2]; omega

theorem iblk4_apply (c : Dev nD) (t : Fin cfg0.N) (q : Fin 1024) :
    (iblk m c 4 t : Vec Ideal S1x1024 .f32) (ix2 (0 : Fin 1) q) = X1 m c (ix2 (lloc t q) (1 : Fin 2)) := by
  refine Eq.trans ?_ (V_v14_apply m c (lloc t q))
  unfold iblk
  rw [View.read_apply]
  show V m c main_v14 _ = V m c main_v14 _
  refine congrArg (V m c main_v14) (funext fun a => Fin.ext ?_)
  match a with
  | ⟨0, _⟩ => show win0_4.index t 0 * 1 + 1 * 0 = 0; rw [(block_index t).2.2.2.2.1.1]
  | ⟨1, _⟩ => show win0_4.index t 1 * 1024 + 1 * q.val = t.val / 16 * 1024 + q.val; rw [(block_index t).2.2.2.2.1.2]; omega

end Cert.KernelIdeal.Blocks

end
-- ==== Proof.KdePieces.lean ====
/-
  What each control case of the kernel body leaves behind, as values.

  The body keeps a running row of 1024 sums in a scratch buffer. At the first sample tile it stores a row of zeros,
  reads it back and stores "what was read + this tile's sums"; at every later tile it stores "what the tile before left +
  this tile's sums"; at the last sample tile it also copies the scratch row into the output block. So after a point the
  scratch holds ONE pure function (the store's value) of the five input blocks and of the row it started from — the zero
  row in the first case, the previous point's row in the other two — and in the last case the output block holds the
  same row.
-/
import proofs.«134731_j37915971289662_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

/-- The two zero offsets, as the constant function. -/
theorem hz : (![0, 0] : Fin 2 → Nat) = fun _ => 0 := funext fun a => by fin_cases a <;> rfl

/-- A later sample tile that is not the last: the scratch row ends at the accumulating store's value over the input
    blocks and the row the point before left. -/
theorem scratch_B (c : Dev nD) (i : grid0.Coords) (arg2 : Memref sig .tc .vmem S1024x1 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i) (x0 : Vec F S1024x1 .f32) (x1 : Vec F S1024x1 .f32) (x2 : Vec F S1024x1 .f32) (x3 : Vec F S1x1024 .f32) (x4 : Vec F S1x1024 .f32) (xs0 : Vec F S1x1024 .f32) :
    sout0_B_0 c i arg2 harg2 arg3 harg3 arg4 harg4 arg5 harg5 arg6 harg6 arg7 harg7 arg8 harg8 hc0 hc1 x0 x1 x2 x3 x4 xs0 = k0_pay2 x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero hz]
  simp only [View.readAt_eq_ld, harg2.read_unread, harg3.read_unread, harg4.read_unread, harg5.read_unread,
    harg6.read_unread, harg8.read_unread, View.ld_unit_zero (S := S1024x1) hz, View.ld_unit_zero (S := S1x1024) hz]

/-- The last sample tile: the scratch row ends at the same value; -/
theorem scratch_C (c : Dev nD) (i : grid0.Coords) (arg2 : Memref sig .tc .vmem S1024x1 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i) (x0 : Vec F S1024x1 .f32) (x1 : Vec F S1024x1 .f32) (x2 : Vec F S1024x1 .f32) (x3 : Vec F S1x1024 .f32) (x4 : Vec F S1x1024 .f32) (xs0 : Vec F S1x1024 .f32) :
    sout0_C_0 c i arg2 harg2 arg3 harg3 arg4 harg4 arg5 harg5 arg6 harg6 arg7 harg7 arg8 harg8 hc0 hc1 x0 x1 x2 x3 x4 xs0 = k0_pay2 x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread,
    harg6.read_unread, harg8.read_unread, View.ld_unit_zero (S := S1024x1) hz, View.ld_unit_zero (S := S1x1024) hz]

/-- and the output block is the scratch row read back after that store: the same value again. -/
theorem out_C (c : Dev nD) (i : grid0.Coords) (arg2 : Memref sig .tc .vmem S1024x1 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i) (x0 : Vec F S1024x1 .f32) (x1 : Vec F S1024x1 .f32) (x2 : Vec F S1024x1 .f32) (x3 : Vec F S1x1024 .f32) (x4 : Vec F S1x1024 .f32) (xs0 : Vec F S1x1024 .f32) :
    out0_C_5 c i arg2 harg2 arg3 harg3 arg4 harg4 arg5 harg5 arg6 harg6 arg7 harg7 arg8 harg8 hc0 hc1 x0 x1 x2 x3 x4 xs0 = k0_pay2 x0 x1 x2 x3 x4 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz, View.readCov_unit_zero (S := S1x1024) _ hz]
  simp only [View.readAt_eq_ld, harg2.read_unread, harg3.read_unread, harg4.read_unread, harg5.read_unread,
    harg6.read_unread, harg8.read_unread, View.ld_unit_zero (S := S1024x1) hz, View.ld_unit_zero (S := S1x1024) hz]

/-- The first sample tile: the zero row is stored, read back, and the accumulating store's value over it is left. -/
theorem scratch_A (c : Dev nD) (i : grid0.Coords) (arg2 : Memref sig .tc .vmem S1024x1 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i) (x0 : Vec F S1024x1 .f32) (x1 : Vec F S1024x1 .f32) (x2 : Vec F S1024x1 .f32) (x3 : Vec F S1x1024 .f32) (x4 : Vec F S1x1024 .f32) :
    sout0_A_0 c i arg2 harg2 arg3 harg3 arg4 harg4 arg5 harg5 arg6 harg6 arg7 harg7 arg8 harg8 hc0 hc1 x0 x1 x2 x3 x4 = k0_pay2 x0 x1 x2 x3 x4 k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x1024) hz, View.readCov_unit_zero (S := S1x1024) _ hz]
  simp only [View.readAt_eq_ld, harg2.read_unread, harg3.read_unread, harg4.read_unread, harg5.read_unread,
    harg6.read_unread, harg8.read_unread, View.ld_unit_zero (S := S1024x1) hz, View.ld_unit_zero (S := S1x1024) hz]

end Cert.KernelIdeal.Pieces

end
-- ==== Proof.KdePayload.lean ====
/-
  The accumulating store's value, read at a lane.

  The body's one arithmetic value is a row of 1024 numbers: lane `q` is the value carried in (`acc`) at `q` plus the sum
  over the tile's 1024 rows `r` of `exp ((0 - d²(r, q)) · 4) · m r`, where `d²(r, q)` is `(sx r - lx q)² + (sy r - ly q)²` —
  the sample columns `sx`, `sy`, `m` broadcast along the lanes, the location rows `lx`, `ly` broadcast along the rows, and
  the sum over rows taken from zero. The zero row the first tile starts from is `0` at every lane.
-/
import proofs.«134731_j37915971289662_2_alg».proof.Proof.Gen.KernelIdeal.Skeleton
import proofs.«134731_j37915971289662_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen Cert.LibColumn

/-- Row `r` of the tile against lane `q`: the Gaussian of the squared distance, times the row's weight. -/
def cell (sx sy mk : Vec Ideal S1024x1 .f32) (lx ly : Vec Ideal S1x1024 .f32) (r q : Fin 1024) : EReal :=
  Ideal.exp ((0 - ((sx (ix2 r (0 : Fin 1)) - lx (ix2 (0 : Fin 1) q)) * (sx (ix2 r (0 : Fin 1)) - lx (ix2 (0 : Fin 1) q))
      + (sy (ix2 r (0 : Fin 1)) - ly (ix2 (0 : Fin 1) q)) * (sy (ix2 r (0 : Fin 1)) - ly (ix2 (0 : Fin 1) q))))
    * Ideal.ofBits .f32 0x40800000#32) * mk (ix2 r (0 : Fin 1))

/-- The zero row is `0` at every lane. -/
theorem pay1_apply (q : Fin 1024) : k0_pay1 (F := Ideal) (ix2 (0 : Fin 1) q) = 0 := by
  unfold k0_pay1
  simp only [shapeCast_self]
  exact Ideal.ofBits_zero_f32

/-- The accumulating store's value at lane `q`: what was carried in, plus the tile's rows summed. -/
theorem pay2_apply (sx sy mk : Vec Ideal S1024x1 .f32) (lx ly acc : Vec Ideal S1x1024 .f32) (q : Fin 1024) :
    k0_pay2 (F := Ideal) sx sy mk lx ly acc (ix2 (0 : Fin 1) q)
      = acc (ix2 (0 : Fin 1) q) + ∑ r : Fin 1024, cell sx sy mk lx ly r q := by
  unfold k0_pay2
  simp only [shapeCast_self]
  refine congrArg (acc (ix2 (0 : Fin 1) q) + ·) ?_
  refine (shapeCast_a_1a_apply _ _ (0 : Fin 1) q).trans ?_
  refine (Ideal.multiReduction_add_single _ _ _ _ _ (ix1 q)).trans ?_
  refine Finset.sum_congr rfl fun r _ => ?_
  have hl : reduces_S1024x1024_S1024.lift (ix1 q) r = ix2 r q := by
    funext a; match a with | ⟨0, _⟩ => rfl | ⟨1, _⟩ => rfl
  rw [hl]
  have e3 := broadcastTo_a1_ab_apply sx broadcasts_S1024x1_S1024x1024 r q
  have e5 := broadcastTo_a1_ab_apply sy broadcasts_S1024x1_S1024x1024 r q
  have e7 := broadcastTo_a1_ab_apply mk broadcasts_S1024x1_S1024x1024 r q
  have e9 := broadcastTo_1b_ab_apply lx broadcasts_S1x1024_S1024x1024 r q
  have e11 := broadcastTo_1b_ab_apply ly broadcasts_S1x1024_S1024x1024 r q
  show Ideal.exp ((Ideal.ofBits .f32 0x00000000#32
        - ((broadcastTo S1024x1024 sx broadcasts_S1024x1_S1024x1024 (ix2 r q) - broadcastTo S1024x1024 lx broadcasts_S1x1024_S1024x1024 (ix2 r q))
            * (broadcastTo S1024x1024 sx broadcasts_S1024x1_S1024x1024 (ix2 r q) - broadcastTo S1024x1024 lx broadcasts_S1x1024_S1024x1024 (ix2 r q))
          + (broadcastTo S1024x1024 sy broadcasts_S1024x1_S1024x1024 (ix2 r q) - broadcastTo S1024x1024 ly broadcasts_S1x1024_S1024x1024 (ix2 r q))
            * (broadcastTo S1024x1024 sy broadcasts_S1024x1_S1024x1024 (ix2 r q) - broadcastTo S1024x1024 ly broadcasts_S1x1024_S1024x1024 (ix2 r q))))
      * Ideal.ofBits .f32 0x40800000#32) * broadcastTo S1024x1024 mk broadcasts_S1024x1_S1024x1024 (ix2 r q) = _
  rw [e3, e5, e7, e9, e11, Ideal.ofBits_zero_f32]
  rfl

end Cert.KernelIdeal.Payload

end
-- ==== Proof.KdeSpec.lean ====
/-
  The Gaussian density sum as ONE function of the two point arrays, index by index, on the extended reals.

  For a sample `s` (a row of the 16384 × 2 array `x`) and a location `l` (a row of the 8192 × 2 array `y`) the pair's
  weight is `exp ((0 - |x s - y l|²) · 4) · w s`, where `|·|²` is the sum of the two squared coordinate differences and
  `w s` is the sample's weight (the indicator of the locations' bounding box, as a float). The density at `l` is the sum
  of the weights over all samples, and the result divides each density by the sum of all densities.

  Two ways of writing the same numbers meet here:
  * the exponent as `(0 - q) · 4` or as `(-(0 + q)) / (1/4)`: equal on EVERY extended real, since dividing by the real
    `1/4` is multiplying by `4` at the infinities too, and `0 - q = -q`;
  * the sum over the 16384 samples taken at once, or as sixteen tiles of 1024 accumulated one after the other from
    zero: addition of extended reals is commutative and associative, so regrouping a finite sum changes nothing.
-/
import Idealize.ShloMosaic.PureOps.Ideal
import Idealize.ShloMosaic.PureOps.Ideal.Laws
import Idealize.ShloMosaic.Lib.ValueIdx

noncomputable section

open scoped BigOperators

namespace Cert.KdeSpec

open Idealize.ShloMosaic Idealize.ShloMosaic.ValueIdx

/-! ## The two literals -/

/-- The word `0x40800000` denotes the real `4`. -/
theorem ofBits_four : Ideal.ofBits .f32 0x40800000#32 = ((4 : ℝ) : EReal) := by
  simp [Ideal.ofBits, Ideal.ieee, -EReal.coe_mul]; norm_num

/-- The word `0x3E800000` denotes the real `1/4`. -/
theorem ofBits_quarter : Ideal.ofBits .f32 0x3E800000#32 = (((1 / 4 : ℝ)) : EReal) := by
  simp [Ideal.ofBits, Ideal.ieee, -EReal.coe_mul]; norm_num

/-- The zero word denotes `0`. -/
theorem ofBits_zero : Ideal.ofBits .f32 0x00000000#32 = 0 := Ideal.ofBits_zero_f32

/-! ## The pair weight and the density -/

/-- The samples' shape and the locations' shape. -/
abbrev SX : Shape := ⟨2, ![16384, 2]⟩
abbrev SY : Shape := ⟨2, ![8192, 2]⟩

/-- The squared distance between sample `s` and location `l`: the two squared coordinate differences, added. -/
def sqdist (x : SX.Idx → EReal) (y : SY.Idx → EReal) (s : Fin 16384) (l : Fin 8192) : EReal :=
  (x (ix2 s 0) - y (ix2 l 0)) * (x (ix2 s 0) - y (ix2 l 0)) + (x (ix2 s 1) - y (ix2 l 1)) * (x (ix2 s 1) - y (ix2 l 1))

/-- The weight of the pair (sample `s`, location `l`): the Gaussian of the squared distance at bandwidth `1/2`, times the
    sample's weight. -/
def pair (x : SX.Idx → EReal) (y : SY.Idx → EReal) (w : Fin 16384 → EReal) (s : Fin 16384) (l : Fin 8192) : EReal :=
  Ideal.exp ((0 - sqdist x y s l) * Ideal.ofBits .f32 0x40800000#32) * w s

/-- The density at location `l`: the pairs' weights summed over every sample. -/
def dens (x : SX.Idx → EReal) (y : SY.Idx → EReal) (w : Fin 16384 → EReal) (l : Fin 8192) : EReal :=
  ∑ s : Fin 16384, pair x y w s l

/-- The exponent written with a negation and a quotient by `1/4` is the one written with a difference from zero and a
    product with `4`, whatever extended real the squared distance is. -/
theorem exponent_eq (q : EReal) :
    Ideal.div (-(Ideal.ofBits .f32 0x00000000#32 + q)) (Ideal.ofBits .f32 0x3E800000#32)
      = (0 - q) * Ideal.ofBits .f32 0x40800000#32 := by
  rw [ofBits_zero, ofBits_quarter, ofBits_four, zero_add, zero_sub,
    Ideal.div_coe (by norm_num : (1 / 4 : ℝ) ≠ 0)]
  norm_num

/-! ## Tiles of 1024 samples -/

/-- The samples of tile `k` (rows `1024 k … 1024 k + 1023`) summed, at location `l`. -/
def tile (x : SX.Idx → EReal) (y : SY.Idx → EReal) (w : Fin 16384 → EReal) (k : Fin 16) (l : Fin 8192) : EReal :=
  ∑ r : Fin 1024, pair x y w ⟨k.val * 1024 + r.val, by have := k.isLt; have := r.isLt; omega⟩ l

/-- Tile number `k` for any natural `k`: tiles past the sixteenth count as zero. -/
def tileN (x : SX.Idx → EReal) (y : SY.Idx → EReal) (w : Fin 16384 → EReal) (k : ℕ) (l : Fin 8192) : EReal :=
  if h : k < 16 then tile x y w ⟨k, h⟩ l else 0

theorem tileN_of_lt (x : SX.Idx → EReal) (y : SY.Idx → EReal) (w : Fin 16384 → EReal) (k : ℕ) (h : k < 16) (l : Fin 8192) :
    tileN x y w k l = tile x y w ⟨k, h⟩ l := dif_pos h

/-- The first `n` tiles summed. -/
def part (x : SX.Idx → EReal) (y : SY.Idx → EReal) (w : Fin 16384 → EReal) (n : ℕ) (l : Fin 8192) : EReal :=
  ∑ k ∈ Finset.range n, tileN x y w k l

theorem part_zero (x : SX.Idx → EReal) (y : SY.Idx → EReal) (w : Fin 16384 → EReal) (l : Fin 8192) :
    part x y w 0 l = 0 := Finset.sum_range_zero _

/-- One more tile. -/
theorem part_succ (x : SX.Idx → EReal) (y : SY.Idx → EReal) (w : Fin 16384 → EReal) (n : ℕ) (l : Fin 8192) :
    part x y w (n + 1) l = part x y w n l + tileN x y w n l := Finset.sum_range_succ _ _

/-- A sum over the 16384 samples is the sum over the sixteen tiles of the sums inside each tile. -/
theorem sum_tiles (f : Fin 16384 → EReal) :
    ∑ s : Fin 16384, f s
      = ∑ k : Fin 16, ∑ r : Fin 1024, f ⟨k.val * 1024 + r.val, by have := k.isLt; have := r.isLt; omega⟩ := by
  rw [← Equiv.sum_comp (finProdFinEquiv.trans (finCongr (by norm_num : 16 * 1024 = 16384))) f, Fintype.sum_prod_type]
  refine Finset.sum_congr rfl fun k _ => Finset.sum_congr rfl fun r _ => congrArg f (Fin.ext ?_)
  simp only [Equiv.trans_apply, finProdFinEquiv_apply_val, finCongr_apply, Fin.coe_cast]
  omega

/-- All sixteen tiles are the density. -/
theorem part_full (x : SX.Idx → EReal) (y : SY.Idx → EReal) (w : Fin 16384 → EReal) (l : Fin 8192) :
    part x y w 16 l = dens x y w l := by
  unfold part dens
  rw [Finset.sum_range, sum_tiles]
  exact Finset.sum_congr rfl fun k _ => by rw [tileN_of_lt x y w k.val k.isLt]; rfl

/-! ## The normalisation both programs end with -/

/-- Every density divided by the sum of all the densities (from zero), as the host computes it: the same operations in
    both programs, kept as one term so that neither side is ever opened. -/
def normalized (out : FVec Ideal ⟨1, ![8192]⟩ .f32)
    (hb : (⟨0, ![]⟩ : Shape).BroadcastsInDim ⟨1, ![8192]⟩ (![] : Fin 0 → Fin 1))
    (hr : (⟨1, ![8192]⟩ : Shape).ReducesTo [0] ⟨0, ![]⟩) (h0 : 0 < (⟨0, ![]⟩ : Shape).numel) :
    FVec Ideal ⟨1, ![8192]⟩ .f32 :=
  Host.divf out (broadcastInDim ⟨1, ![8192]⟩ ![] hb
    (Host.reduceAdd out (constant (F := Ideal) ⟨0, ![]⟩ .f32 0x00000000#32) hr h0))

end Cert.KdeSpec

end
-- ==== Proof.KdeAccum.lean ====
/-
  The running sums across the grid.

  Point `t` of the 8 × 16 grid adds sample tile `t % 16` to the row of sums for location tile `t / 16`: at the first
  sample tile the row restarts from zero, at every other it continues from what the point before left. So after point
  `t` lane `q` of the scratch row is the sum of the sample tiles `0 … t % 16` at location `1024 (t / 16) + q` — by induction
  on the point, the three control cases giving the step —, and at the last sample tile (`t % 16 = 15`) the output block
  holds the same row, which is then the whole density.
-/
import proofs.«134731_j37915971289662_2_alg».proof.Proof.KdeBlocks
import proofs.«134731_j37915971289662_2_alg».proof.Proof.KdePieces
import proofs.«134731_j37915971289662_2_alg».proof.Proof.KdePayload
import proofs.«134731_j37915971289662_2_alg».proof.Proof.KdeSpec

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Blocks Cert.KernelIdeal.Pieces Cert.KernelIdeal.Payload Cert.KdeSpec

variable (m : (ℓ : Loc nD τ sig) → Buf (Elt Ideal) ℓ)

/-- The samples' weights on core `c`. -/
abbrev W (c : Dev nD) : Fin 16384 → EReal := weight (X0 m c) (X1 m c)

/-- The rows of a point's tile summed, over the point's blocks, are the specification's tile `t % 16` at the point's
    location. -/
theorem tile_eq (c : Dev nD) (t : Fin cfg0.N) (q : Fin 1024) :
    ∑ r : Fin 1024, cell (iblk m c 0 t) (iblk m c 1 t) (iblk m c 2 t) (iblk m c 3 t) (iblk m c 4 t) r q = tileN (X0 m c) (X1 m c) (W m c) (t.val % 16) (lloc t q) := by
  rw [tileN_of_lt _ _ _ _ (Nat.mod_lt _ (by norm_num)) _]
  unfold tile
  refine Finset.sum_congr rfl fun r _ => ?_
  unfold cell
  rw [iblk0_apply m c t r, iblk1_apply m c t r, iblk2_apply m c t r, iblk3_apply m c t q, iblk4_apply m c t q]
  rfl

/-- The accumulating store's value over a point's blocks, at lane `q`: what was carried in plus the point's tile. -/
theorem pay2_tile (c : Dev nD) (t : Fin cfg0.N) (acc : Vec Ideal S1x1024 .f32) (q : Fin 1024) :
    k0_pay2 (F := Ideal) (iblk m c 0 t) (iblk m c 1 t) (iblk m c 2 t) (iblk m c 3 t) (iblk m c 4 t) acc (ix2 (0 : Fin 1) q)
      = acc (ix2 (0 : Fin 1) q) + tileN (X0 m c) (X1 m c) (W m c) (t.val % 16) (lloc t q) :=
  (pay2_apply (iblk m c 0 t) (iblk m c 1 t) (iblk m c 2 t) (iblk m c 3 t) (iblk m c 4 t) acc q).trans (congrArg (acc (ix2 (0 : Fin 1) q) + ·) (tile_eq m c t q))

/-! ## The scratch row after a point, case by case -/

theorem scratch_at_A (c : Dev nD) (t : Fin cfg0.N) (h0 : t.val % 16 = 0) (h1 : ¬t.val % 16 = 15) :
    (outsAt0 m c t.val t.isLt).2 = k0_pay2 (F := Ideal) (iblk m c 0 t) (iblk m c 1 t) (iblk m c 2 t) (iblk m c 3 t) (iblk m c 4 t) (k0_pay1 (F := Ideal)) := by
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) ((hcond0_0 t).mpr h0) (fun h => h1 ((hcond0_1 t).mp h)) (iblk m c 0 t) (iblk m c 1 t) (iblk m c 2 t) (iblk m c 3 t) (iblk m c 4 t)

theorem scratch_at_B (c : Dev nD) (t : Fin cfg0.N) (h0 : ¬t.val % 16 = 0) (h1 : ¬t.val % 16 = 15) :
    (outsAt0 m c t.val t.isLt).2
      = k0_pay2 (F := Ideal) (iblk m c 0 t) (iblk m c 1 t) (iblk m c 2 t) (iblk m c 3 t) (iblk m c 4 t) (outsAt0 m c (t.val - 1) (Nat.lt_of_le_of_lt (Nat.sub_le _ _) t.isLt)).2 := by
  rw [outsAt0_B m c t h0 h1]
  dsimp only
  exact scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) (fun h => h0 ((hcond0_0 t).mp h)) (fun h => h1 ((hcond0_1 t).mp h)) (iblk m c 0 t) (iblk m c 1 t) (iblk m c 2 t) (iblk m c 3 t) (iblk m c 4 t)
    (outsAt0 m c (t.val - 1) (Nat.lt_of_le_of_lt (Nat.sub_le _ _) t.isLt)).2

theorem scratch_at_C (c : Dev nD) (t : Fin cfg0.N) (h0 : ¬t.val % 16 = 0) (h1 : t.val % 16 = 15) :
    (outsAt0 m c t.val t.isLt).2
      = k0_pay2 (F := Ideal) (iblk m c 0 t) (iblk m c 1 t) (iblk m c 2 t) (iblk m c 3 t) (iblk m c 4 t) (outsAt0 m c (t.val - 1) (Nat.lt_of_le_of_lt (Nat.sub_le _ _) t.isLt)).2 := by
  rw [outsAt0_C m c t h0 h1]
  dsimp only
  exact scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) (fun h => h0 ((hcond0_0 t).mp h)) ((hcond0_1 t).mpr h1) (iblk m c 0 t) (iblk m c 1 t) (iblk m c 2 t) (iblk m c 3 t) (iblk m c 4 t)
    (outsAt0 m c (t.val - 1) (Nat.lt_of_le_of_lt (Nat.sub_le _ _) t.isLt)).2

/-- At the last sample tile the output block is the scratch row. -/
theorem out_at_C (c : Dev nD) (t : Fin cfg0.N) (h0 : ¬t.val % 16 = 0) (h1 : t.val % 16 = 15) :
    (outsAt0 m c t.val t.isLt).1 = (outsAt0 m c t.val t.isLt).2 := by
  rw [scratch_at_C m c t h0 h1, outsAt0_C m c t h0 h1]
  dsimp only
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) (fun h => h0 ((hcond0_0 t).mp h)) ((hcond0_1 t).mpr h1) (iblk m c 0 t) (iblk m c 1 t) (iblk m c 2 t) (iblk m c 3 t) (iblk m c 4 t)
    (outsAt0 m c (t.val - 1) (Nat.lt_of_le_of_lt (Nat.sub_le _ _) t.isLt)).2

/-! ## The invariant -/

/-- After point `n`, lane `q` of the scratch row is the sum of the sample tiles `0 … n % 16` at the point's location. -/
theorem scratch_eq (c : Dev nD) : ∀ (n : ℕ) (hn : n < cfg0.N) (q : Fin 1024),
    (outsAt0 m c n hn).2 (ix2 (0 : Fin 1) q)
      = part (X0 m c) (X1 m c) (W m c) (n % 16 + 1) (lloc ⟨n, hn⟩ q)
  | 0, hn, q => by
    rw [show (outsAt0 m c 0 hn).2 = _ from scratch_at_A m c ⟨0, hn⟩ rfl (by show ¬(0 % 16 = 15); decide), pay2_tile, pay1_apply, zero_add,
      part_succ, part_zero, zero_add]
  | n + 1, hn, q => by
    have hN : n + 1 < 128 := lt_of_lt_of_eq hn (show cfg0.N = 128 from N_0)
    by_cases h0 : (n + 1) % 16 = 0
    · have h1 : ¬(n + 1) % 16 = 15 := by omega
      rw [show (outsAt0 m c (n + 1) hn).2 = _ from scratch_at_A m c ⟨n + 1, hn⟩ h0 h1, pay2_tile, pay1_apply, zero_add,
        part_succ]
      show _ = part _ _ _ ((n + 1) % 16) _ + _
      rw [h0, part_zero, zero_add]
    · have ih := scratch_eq c n (Nat.lt_of_succ_lt hn) q
      have e1 : (n + 1) % 16 = n % 16 + 1 := by omega
      have e2 : lloc ⟨n + 1, hn⟩ q = lloc ⟨n, Nat.lt_of_succ_lt hn⟩ q :=
        Fin.ext (by show (n + 1) / 16 * 1024 + q.val = n / 16 * 1024 + q.val; omega)
      have step : (outsAt0 m c (n + 1) hn).2
          = k0_pay2 (F := Ideal) (iblk m c 0 ⟨n + 1, hn⟩) (iblk m c 1 ⟨n + 1, hn⟩) (iblk m c 2 ⟨n + 1, hn⟩)
              (iblk m c 3 ⟨n + 1, hn⟩) (iblk m c 4 ⟨n + 1, hn⟩) (outsAt0 m c n (Nat.lt_of_succ_lt hn)).2 := by
        by_cases h1 : (n + 1) % 16 = 15
        · exact scratch_at_C m c ⟨n + 1, hn⟩ h0 h1
        · exact scratch_at_B m c ⟨n + 1, hn⟩ h0 h1
      rw [step, pay2_tile, ih, part_succ _ _ _ ((n + 1) % 16)]
      show _ + tileN _ _ _ ((n + 1) % 16) _ = _
      rw [e2, e1]

/-- At a point of the last sample tile, lane `q` of the output block is the density at the point's location. -/
theorem out_eq (c : Dev nD) (t : Fin cfg0.N) (h1 : t.val % 16 = 15) (q : Fin 1024) :
    (outsAt0 m c t.val t.isLt).1 (ix2 (0 : Fin 1) q) = dens (X0 m c) (X1 m c) (W m c) (lloc t q) := by
  rw [out_at_C m c t (by omega) h1, scratch_eq m c t.val t.isLt q, h1, part_full]

end Cert.KernelIdeal.Accum

end
-- ==== Proof.KdeFinal.lean ====
/-
  The kernel's result.

  Only the points of the last sample tile (`t % 16 = 15`) write the output block back, and the eight of them write the
  eight blocks of 1024 lanes that tile the 1 × 8192 output array; what each writes is the densities of its 1024
  locations. So after the run the output array is the row of all 8192 densities. The host then flattens the row,
  sums it from zero and divides: the normalisation of the densities.
-/
import proofs.«134731_j37915971289662_2_alg».proof.Proof.KdeAccum
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Accum Cert.KdeSpec

variable (m : (ℓ : Loc nD τ sig) → Buf (Elt Ideal) ℓ) (ρ : Dev nD → PrngReg)

-- from here on a density is one number per location: only its value at a location matters, not its 16384 terms
attribute [local irreducible] Cert.KdeSpec.dens

/-- The row of the 8192 densities, as contents of the output array. -/
abbrev densRow (c : Dev nD) : Buf (Elt Ideal) ((c : Thread nD τ).loc main_v15) :=
  fun i : S1x8192.Idx => dens (X0 m c) (X1 m c) (W m c) (i 1)

/-- The densities as a flat array. -/
abbrev densFlat (c : Dev nD) : FVec Ideal S8192 .f32 :=
  fun j : S8192.Idx => dens (X0 m c) (X1 m c) (W m c) (j 0)

/-- What a point of the last sample tile writes back is its block of the densities' row. -/
theorem flushed_eq (c : Dev nD) (t : Fin cfg0.N) (hf : (cfg0.win 5).flush t = true) :
    (dats m 0 c).flushed 5 t = ((cfg0.win 5).blk t).view.read (Elt Ideal) (densRow m c) := by
  have h15 : t.val % 16 = 15 := (flush0_5 t).mp hf
  show (cfg0.win 5).cut (grid0.coords t) ((dats m 0 c).after 5 t) = _
  rw [after0_5]
  funext j
  have hq : (j 1).val < 1024 := (j 1).isLt
  have hj0 : (j 0).val < 1 := (j 0).isLt
  rw [View.read_apply]
  refine Eq.trans (congrArg (outsAt0 m c t.val t.isLt).1
    (?_ : (cfg0.win 5).xinj (grid0.coords t) j = (ix2 (0 : Fin 1) (⟨(j 1).val, hq⟩ : Fin 1024) : S1x1024.Idx))) ?_
  · funext a; apply Fin.ext
    match a with
    | ⟨0, _⟩ => show (j 0).val = 0; omega
    | ⟨1, _⟩ => rfl
  · rw [out_eq m c t h15 ⟨(j 1).val, hq⟩]
    show dens (X0 m c) (X1 m c) (W m c) (lloc t ⟨(j 1).val, hq⟩)
      = dens (X0 m c) (X1 m c) (W m c) ((((cfg0.win 5).blk t).view.emb j) 1)
    refine congrArg (dens (X0 m c) (X1 m c) (W m c)) (Fin.ext ?_)
    show t.val / 16 * 1024 + (j 1).val = win0_5.index t 1 * 1024 + 1 * (j 1).val
    rw [(block_index t).2.2.2.2.2.2]; omega

/-- An index of the output array is in point `t`'s block iff each coordinate is in the block's range on its axis. -/
theorem mem_blk (t : Fin cfg0.N) (i : S1x8192.Idx) :
    i ∈ ((cfg0.win 5).blk t).view.set ↔ ∀ a : Fin 2, win0_5.index t a * S1x1024.size a ≤ (i a).val ∧ (i a).val < win0_5.index t a * S1x1024.size a + S1x1024.size a := by
  show i ∈ ((View.whole main_v15).slice (win0_5.rect t)).set ↔ _
  rw [View.set_slice_whole, Rect.mem_set_unit]
  exact Iff.rfl

/-- Every lane of the output array is in the block some point of the last sample tile writes back: lane `l` in that of
    location tile `l / 1024`. -/
theorem cover (i : S1x8192.Idx) : ∃ t : Fin cfg0.N, (cfg0.win 5).flush t = true ∧ i ∈ ((cfg0.win 5).blk t).view.set := by
  have hi0 : (i 0).val < 1 := (i 0).isLt
  have hi1 : (i 1).val < 8192 := (i 1).isLt
  have hN : cfg0.N = 128 := N_0
  have ht : (i 1).val / 1024 * 16 + 15 < cfg0.N := by rw [hN]; omega
  refine ⟨⟨(i 1).val / 1024 * 16 + 15, ht⟩, (flush0_5 _).mpr (by show ((i 1).val / 1024 * 16 + 15) % 16 = 15; omega), ?_⟩
  rw [mem_blk]
  obtain ⟨e0, e1⟩ := (block_index ⟨(i 1).val / 1024 * 16 + 15, ht⟩).2.2.2.2.2
  have e1' : win0_5.index ⟨(i 1).val / 1024 * 16 + 15, ht⟩ 1 = ((i 1).val / 1024 * 16 + 15) / 16 := e1
  intro a
  match a with
  | ⟨0, _⟩ =>
    show win0_5.index ⟨(i 1).val / 1024 * 16 + 15, ht⟩ 0 * 1 ≤ (i 0).val ∧ (i 0).val < win0_5.index ⟨(i 1).val / 1024 * 16 + 15, ht⟩ 0 * 1 + 1
    rw [e0]; omega
  | ⟨1, _⟩ =>
    show win0_5.index ⟨(i 1).val / 1024 * 16 + 15, ht⟩ 1 * 1024 ≤ (i 1).val ∧ (i 1).val < win0_5.index ⟨(i 1).val / 1024 * 16 + 15, ht⟩ 1 * 1024 + 1024
    rw [e1']; omega

/-- The output array after the run: the densities' row. -/
theorem final (c : Dev nD) : (dats m 0 c).arrAt 5 cfg0.N = densRow m c :=
  (dats m 0 c).arrAt_eq_of_cover 5 (densRow m c) (flushed_eq m c) cover

/-- The host's operations after the region, on that array: the densities, normalised. -/
theorem tail_eq (c : Dev nD) :
    Pipeline.afterTail₀ cfgs (dats m) 0 (V0 m) [hostOps1] c main_v19
      = normalized (densFlat m c) bcast_S_S8192 reducesTo_S8192_S_d0 h_S_ := by
  have hw : Pipeline.withArrays (cfgs 0).spec c (V0 m c) (fun w => (dats m 0 c).arrAt w (cfgs 0).N) (Proc.devRef .tc main_v15)
      = densRow m c :=
    (Pipeline.withArrays_arr spec0 launch0.win.arr_inj c _ _ 5).trans (final m c)
  have hrow : shapeCast S8192 (densRow m c) shapeCasts_S1x8192_S8192 = densFlat m c :=
    funext fun j => (congrArg (shapeCast S8192 (densRow m c) shapeCasts_S1x8192_S8192) (eq_ix1 j)).trans
      (shapeCast_1a_a_apply (densRow m c) shapeCasts_S1x8192_S8192 (j 0))
  unfold Pipeline.afterTail₀
  show StableHlo.after hostOps1 _ (Proc.devRef .tc main_v19) = _
  after_results
  rw [hw]
  exact congrArg (fun out => normalized out bcast_S_S8192 reducesTo_S8192_S_d0 h_S_) hrow

/-- The kernel's run, read: the result at the normalised densities, the arguments unchanged. -/
theorem run : θ_run defs (onTc (τ := τ) (main (F := Ideal))) ⟨m, fun _ => 0, ρ⟩ fun r => ∀ c : Dev nD,
      r.2.mem ((c.tc : Thread nD τ).loc main_v19) = normalized (densFlat m c) bcast_S_S8192 reducesTo_S8192_S_d0 h_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v19 (Pipeline.mem_restRefs_of main_v19 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Final

end
-- ==== Proof.KdeRef.lean ====
/-
  The reference computes the specification.

  Read one operation at a time, the reference's term at `(s, l)` before its sum over samples is
  `exp ((-(0 + (d₀² + d₁²))) / (1/4)) · w s` with `d_k = x (s, k) - y (l, k)` — the spec's pair weight, by the law that joins
  the two spellings of the exponent —, its sum over the samples from zero is the density, and its last three operations
  are the normalisation.
-/
import proofs.«134731_j37915971289662_2_alg».proof.Proof.Gen.ReferenceIdeal.Read
import proofs.«134731_j37915971289662_2_alg».proof.Proof.KdeSpec
import Idealize.ShloMosaic.Lib.ValueIdx

noncomputable section

open scoped BigOperators
open Idealize.ShloMosaic Idealize.ShloMosaic.ValueIdx

namespace Cert.KdeRef

open Cert.ReferenceIdeal Cert.ReferenceIdeal.Gen Cert.ReferenceIdeal.Read Cert.KdeSpec

/-- A sample's weight as the reference computes it: the bounding-box indicator as a float. -/
def weight (x0 : FVec Ideal S16384x2 .f32) (x1 : FVec Ideal S8192x2 .f32) (s : Fin 16384) : EReal :=
  FloatOps.uitofp (F := Ideal) .f32 (val_main_v6 (F := Ideal) x0 x1 (ix1 s))

/-- Before the sum over samples: the pair's weight. -/
theorem v21_apply (x0 : FVec Ideal S16384x2 .f32) (x1 : FVec Ideal S8192x2 .f32) (s : Fin 16384) (l : Fin 8192) :
    val_main_v21 (F := Ideal) x0 x1 (ix2 s l) = pair x0 x1 (weight x0 x1) s l := by
  have a0 : idx_main_v7 (idx_main_v9 (idx_main_v13 (ix2 s l) 0)) = ix2 s (0 : Fin 2) :=
    funext fun a => Fin.ext (by match a with | ⟨0, _⟩ => rfl | ⟨1, _⟩ => rfl)
  have a1 : idx_main_v7 (idx_main_v9 (idx_main_v13 (ix2 s l) 1)) = ix2 s (1 : Fin 2) :=
    funext fun a => Fin.ext (by match a with | ⟨0, _⟩ => rfl | ⟨1, _⟩ => rfl)
  have b0 : idx_main_v8 (idx_main_v10 (idx_main_v13 (ix2 s l) 0)) = ix2 l (0 : Fin 2) :=
    funext fun a => Fin.ext (by match a with | ⟨0, _⟩ => rfl | ⟨1, _⟩ => rfl)
  have b1 : idx_main_v8 (idx_main_v10 (idx_main_v13 (ix2 s l) 1)) = ix2 l (1 : Fin 2) :=
    funext fun a => Fin.ext (by match a with | ⟨0, _⟩ => rfl | ⟨1, _⟩ => rfl)
  have w0 : idx_main_v18 (idx_main_v20 (ix2 s l)) = ix1 s :=
    funext fun a => Fin.ext (by match a with | ⟨0, _⟩ => rfl)
  rw [val_main_v21_apply, val_main_v17_apply, val_main_v16_apply, val_main_v14_apply, val_main_v13_apply,
    val_main_v15_apply, val_main_cst_1_apply, val_main_cst_0_apply, val_main_v20_apply, val_main_v19_apply,
    val_main_v18_apply, Fin.sum_univ_two]
  simp only [val_main_v12_apply, val_main_v11_apply, val_main_v9_apply, val_main_v7_apply, val_main_v10_apply,
    val_main_v8_apply, a0, a1, b0, b1, w0]
  simp only [Ideal.mulf_def, Ideal.subf_def, Ideal.hostDivf_def, Ideal.hostUnary_exp_def, Ideal.hostNegf_def,
    Ideal.negf_def, Ideal.ofBits_def]
  rw [exponent_eq]
  rfl

/-- The sum over the samples, from zero: the density. -/
theorem v22_apply (x0 : FVec Ideal S16384x2 .f32) (x1 : FVec Ideal S8192x2 .f32) (l : Fin 8192) :
    val_main_v22 (F := Ideal) x0 x1 (ix1 l) = dens x0 x1 (weight x0 x1) l := by
  rw [val_main_v22_apply, val_main_cst_2_apply, Ideal.ofBits_def, Ideal.ofBits_zero_f32, zero_add]
  refine Finset.sum_congr rfl fun k _ => ?_
  have e : idx_main_v22 (ix1 l) k = ix2 k l :=
    funext fun a => Fin.ext (by match a with | ⟨0, _⟩ => rfl | ⟨1, _⟩ => rfl)
  rw [e]
  exact v21_apply x0 x1 k l

/-- The reference's result: the densities, normalised. -/
theorem result_eq (x0 : FVec Ideal S16384x2 .f32) (x1 : FVec Ideal S8192x2 .f32) :
    val_main_v25 (F := Ideal) x0 x1
      = normalized (fun j => dens x0 x1 (weight x0 x1) (j 0)) bcast_S_S8192 reducesTo_S8192_S_d0 h_S_ := by
  have e : val_main_v22 (F := Ideal) x0 x1 = fun j => dens x0 x1 (weight x0 x1) (j 0) :=
    funext fun j => (congrArg (val_main_v22 (F := Ideal) x0 x1) (eq_ix1 j)).trans (v22_apply x0 x1 (j 0))
  unfold val_main_v25 val_main_v24 val_main_v23 val_main_cst_3 normalized
  rw [e]

end Cert.KdeRef

end
-- ==== Proof.KdeClaims.lean ====
/-
  The claims.

  At the extended reals both programs end with the densities of the 8192 locations, each divided by the sum of all of
  them. The kernel gets a location's density as sixteen tiles of 1024 samples accumulated from zero, with the exponent
  written `(0 - d²) · 4`; the reference gets it as one sum over the 16384 samples from zero, with the exponent written
  `(-(0 + d²)) / (1/4)`. The two exponents are one extended real and the two sums are one sum regrouped; the samples'
  weights (the indicator of the locations' bounding box) are the same term in both programs. No step uses that the inputs
  are finite. The idealization rewrote nothing, and the frames are the generated ones.
-/
import proofs.«134731_j37915971289662_2_alg».proof.Defs
import proofs.«134731_j37915971289662_2_alg».proof.Proof.Gen.Kernel.Frame
import proofs.«134731_j37915971289662_2_alg».proof.Proof.Gen.KernelIdeal.Frame
import proofs.«134731_j37915971289662_2_alg».proof.Proof.Gen.ReferenceIdeal.Run
import proofs.«134731_j37915971289662_2_alg».proof.Proof.Gen.ReferenceIdeal.Read
import proofs.«134731_j37915971289662_2_alg».proof.Proof.Gen.Pre_finite_inputs
import proofs.«134731_j37915971289662_2_alg».proof.Proof.KdeFinal
import proofs.«134731_j37915971289662_2_alg».proof.Proof.KdeRef

noncomputable section

open Idealize.ShloMosaic Idealize.ShloMosaic.TcCoe Idealize.SL.Sem

namespace Cert.Proof.KdeClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The samples' weights are one term in the two programs: the same host operations on the same two arrays. -/
theorem weight_eq (x0 : FVec Ideal Cert.KernelIdeal.S16384x2 .f32) (x1 : FVec Ideal Cert.KernelIdeal.S8192x2 .f32) :
    Cert.KdeRef.weight x0 x1 = Cert.KernelIdeal.Blocks.weight x0 x1 := rfl

/-- From memories agreeing on the two arrays, both programs end at the normalised densities of those arrays. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v25_eq _ _).trans ((Cert.KdeRef.result_eq _ _).trans ?_)
  rw [weight_eq]

end Cert.Proof.KdeClaims

end
-- ==== Proof.lean ====
/-
  A pairwise Gaussian density: for each of 8192 locations the sum, over 16384 samples, of
  `exp (-|sample - location|² / (1/4))` times the sample's weight (the indicator that the sample lies strictly inside the
  locations' bounding box), every density then divided by the sum of all of them.

  One program tiles the pairs 1024 × 1024 and accumulates the sample tiles of a location tile in a row of running sums,
  from zero; the other forms all pairs at once and sums over the samples. Over the extended reals the two results are
  equal index by index: the exponent `(0 - d²) · 4` is `(-(0 + d²)) / (1/4)` for every extended real `d²`, and a finite sum
  of extended reals does not depend on how it is grouped.
-/
import proofs.«134731_j37915971289662_2_alg».proof.Defs
import proofs.«134731_j37915971289662_2_alg».proof.Proof.KdeClaims
import proofs.«134731_j37915971289662_2_alg».proof.Proof.Gen.Kernel
import proofs.«134731_j37915971289662_2_alg».proof.Proof.Gen.Kernel.Skeleton
import proofs.«134731_j37915971289662_2_alg».proof.Proof.Gen.Kernel.Launch
import proofs.«134731_j37915971289662_2_alg».proof.Proof.Gen.Kernel.Points
import proofs.«134731_j37915971289662_2_alg».proof.Proof.Gen.Kernel.Frame
import proofs.«134731_j37915971289662_2_alg».proof.Proof.Gen.KernelIdeal
import proofs.«134731_j37915971289662_2_alg».proof.Proof.Gen.KernelIdeal.Skeleton
import proofs.«134731_j37915971289662_2_alg».proof.Proof.Gen.KernelIdeal.Launch
import proofs.«134731_j37915971289662_2_alg».proof.Proof.Gen.KernelIdeal.Points
import proofs.«134731_j37915971289662_2_alg».proof.Proof.Gen.KernelIdeal.Frame
import proofs.«134731_j37915971289662_2_alg».proof.Proof.Gen.ReferenceIdeal
import proofs.«134731_j37915971289662_2_alg».proof.Proof.Gen.ReferenceIdeal.Run
import proofs.«134731_j37915971289662_2_alg».proof.Proof.Gen.ReferenceIdeal.Read
import proofs.«134731_j37915971289662_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    KdeClaims.frame_k, KdeClaims.frame_ki, KdeClaims.frame_ri, KdeClaims.preserves, KdeClaims.algebraic⟩

end Cert.Proof

end
